-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x2048 : Shape := ⟨2, ![32, 2048]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S32x2048x256 .f32) (main_arg1 : IVec S32x2048 32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_c_0 : IVec S_ 32 := constantI S_ 32 0#32
  let main_v4 : IVec S32x2048 32 := broadcastInDim S32x2048 ![] bcast_S_S32x2048 main_c_0
  let main_v5 : IVec S32x2048 1 := cmpi .eq main_arg1 main_v4
  let main_c_1 : IVec S_ 32 := constantI S_ 32 1#32
  let main_v6 : IVec S32x2048 32 := broadcastInDim S32x2048 ![] bcast_S_S32x2048 main_c_1
  let main_v7 : IVec S32x2048 1 := cmpi .eq main_arg1 main_v6
  let main_v8 : IVec S32x2048 1 := ori main_v5 main_v7
  let main_c_2 : IVec S_ 1 := constantI S_ 1 1#1
  let main_v9 : IVec S_ 1 := (fun x v => Host.reduce IntOp.andi x v reducesTo_S32x2048_S_d0_1 h_S_) main_v8 main_c_2
  let main_v10 : IVec S_ 1 := andi main_v3 main_v9
  main_v10
-- ==== Kernel.lean ====
abbrev S32x2048x256 : Shape := ⟨3, ![32, 2048, 256]⟩
abbrev S32x2048 : Shape := ⟨2, ![32, 2048]⟩
abbrev S32x2048x1 : Shape := ⟨3, ![32, 2048, 1]⟩
abbrev S1x512x256 : Shape := ⟨3, ![1, 512, 256]⟩
abbrev S1x2048x256 : Shape := ⟨3, ![1, 2048, 256]⟩
abbrev S1x512x1 : Shape := ⟨3, ![1, 512, 1]⟩
abbrev S512x256 : Shape := ⟨2, ![512, 256]⟩
abbrev S2048x256 : Shape := ⟨2, ![2048, 256]⟩
abbrev S256x2048 : Shape := ⟨2, ![256, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x2048, .i32⟩
  | .hbm, ⟨2, _⟩ => ⟨S32x2048, .f32⟩
  | .hbm, ⟨3, _⟩ => ⟨S32x2048x1, .f32⟩
  | .hbm, ⟨4, _⟩ => ⟨S32x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x512x1, .f32⟩
  | .local _ .vmem, ⟨5, _⟩ => ⟨S1x512x1, .f32⟩
  | .local _ .vmem, ⟨6, _⟩ => ⟨S1x512x256, .f32⟩
  | .local _ .vmem, ⟨7, _⟩ => ⟨S1x512x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32x2048_S32x2048x1_0_1 : S32x2048.BroadcastsInDim S32x2048x1 (![0, 1] : Fin 2 → Fin S32x2048x1.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  transposes_S2048x256_p1_0_S256x2048 : S2048x256.Transposes [1, 0] S256x2048
  reduces_S512x2048_S512 : S512x2048.Reduces [1] S512
  shapeCasts_S512_S512x1 : S512.ShapeCasts S512x1
  broadcasts_S512x1_S512x256 : S512x1.Broadcasts S512x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x256_S1x512x256 : S512x256.ShapeCasts S1x512x256
  dot_S512x256_S256x2048_S512x2048_1_0_0_1_n_n_wf : DotDims.WF S512x256 S256x2048 S512x2048 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x2048x256.size a
  hwx0_0 : ∀ i : grid0.Coords, EltTy.bits .f32 = 32 ∨ (Rect.block (s := S32x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S32x2048x256.size a
  hwx0_1 : ∀ i : grid0.Coords, EltTy.bits .f32 = 32 ∨ (Rect.block (s := S32x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x2048x1.size a
  hwx0_2 : ∀ i : grid0.Coords, EltTy.bits .f32 = 32 ∨ (Rect.block (s := S32x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S32x2048x256.size a
  hwx0_3 : ∀ i : grid0.Coords, EltTy.bits .f32 = 32 ∨ (Rect.block (s := S32x2048x256) S1x512x256.size (cc0_transform_3 i) (hinb0_3 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x2048 : Shape := ⟨2, ![32, 2048]⟩
abbrev S32x2048x2048 : Shape := ⟨3, ![32, 2048, 2048]⟩
abbrev S32x1x2048 : Shape := ⟨3, ![32, 1, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048, .i32⟩
  | .hbm, ⟨2, _⟩ => ⟨S32x2048x2048, .f32⟩
  | .hbm, ⟨3, _⟩ => ⟨S32x2048x2048, .f32⟩
  | .hbm, ⟨4, _⟩ => ⟨S32x1x2048, .i32⟩
  | .hbm, ⟨5, _⟩ => ⟨S32x1x2048, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S32x2048, .f32⟩
  | .hbm, ⟨10, _⟩ => ⟨S32x1x2048, .f32⟩
  | .hbm, ⟨11, _⟩ => ⟨S_, .f32⟩
  | .hbm, ⟨12, _⟩ => ⟨S32x1x2048, .f32⟩
  | .hbm, ⟨13, _⟩ => ⟨S32x1x2048, .f32⟩
  | .hbm, ⟨14, _⟩ => ⟨S32x2048x2048, .f32⟩
  | .hbm, ⟨15, _⟩ => ⟨S32x2048x2048, .f32⟩
  | .hbm, ⟨16, _⟩ => ⟨S32x2048x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  bcast_S32x2048_S32x1x2048_0_2 : S32x2048.BroadcastsInDim S32x1x2048 (![0, 2] : Fin 2 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d1 : S32x2048x2048.ReducesTo [1] S32x2048
  h_S_ : 0 < S_.numel
  bcast_S_S32x1x2048 : S_.BroadcastsInDim S32x1x2048 (![] : Fin 0 → Fin S32x1x2048.rank)
  dot_S32x2048x256_S32x2048x256_S32x2048x2048_2_2_1_1_0_0_wf : DotDims.WF S32x2048x256 S32x2048x256 S32x2048x2048 [2] [2] [1] [1] [0] [0]
  dot_S32x2048x2048_S32x2048x256_S32x2048x256_1_1_2_2_0_0_wf : DotDims.WF S32x2048x2048 S32x2048x256 S32x2048x256 [1] [1] [2] [2] [0] [0]

variable [Facts₀]

def dot_S32x2048x256_S32x2048x256_S32x2048x2048_2_2_1_1_0_0 : DotDims S32x2048x256 S32x2048x256 S32x2048x2048 where
  lhsContracting := [2]
  rhsContracting := [2]
  lhsNonContracting := [1]
  rhsNonContracting := [1]
  lhsBatch := [0]
  rhsBatch := [0]
  wf := dot_S32x2048x256_S32x2048x256_S32x2048x2048_2_2_1_1_0_0_wf
def dot_S32x2048x2048_S32x2048x256_S32x2048x256_1_1_2_2_0_0 : DotDims S32x2048x2048 S32x2048x256 S32x2048x256 where
  lhsContracting := [1]
  rhsContracting := [1]
  lhsNonContracting := [2]
  rhsNonContracting := [2]
  lhsBatch := [0]
  rhsBatch := [0]
  wf := dot_S32x2048x2048_S32x2048x256_S32x2048x256_1_1_2_2_0_0_wf

class Facts : Prop extends Facts₀ where

variable [Facts]
-- ==== Proof.KernelBody.lean ====
/-
  The kernel body at one grid point, as a separation-logic triple, and the pipeline's proof data.

  At point `t = (b, q)` the pipeline hands the body four staging buffers: rows `512 q … 512 q + 511` of batch `b` of the
  activations (window 0), ALL 2048 rows of batch `b` of the same array (window 1: its block index ignores `q`, so the
  pipeline fetches it only when `b` changes and the buffer still holds it at the other points), the mask column of the
  same rows (window 2), and the output block (window 3). The body loads the three inputs whole, loads the output
  buffer without using what it read, and stores ONE value over the whole output block. So after the body the
  inputs' buffers hold what they held and the output's holds that value — the pieces of the store, of which there
  is one, covering the block.

  Windows 0 and 1 read one array. The array's points-to is therefore held half and half: window 0 the left half of the
  full share, window 1 the right half; reading needs no more.
-/
import proofs.«180703_j87960930222122_1_alg».proof.Proof.Gen.Kernel.Launch
import proofs.«180703_j87960930222122_1_alg».proof.Proof.Gen.Kernel.Skeleton
import proofs.«180703_j87960930222122_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not: where the
    pipeline does not fetch, the block index has not moved since the last fetch. Windows 0, 1 and 2 in turn. -/
theorem found0 {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body touches: each buffer whole -/

abbrev rowsBox : Rect S1x512x256 := Rect.unit (s := S1x512x256) ![0, 0, 0] S1x512x256.size inb_S1x512x256_S1x512x256_0_0_0
abbrev slabBox : Rect S1x2048x256 := Rect.unit (s := S1x2048x256) ![0, 0, 0] S1x2048x256.size inb_S1x2048x256_S1x2048x256_0_0_0
abbrev maskBox : Rect S1x512x1 := Rect.unit (s := S1x512x1) ![0, 0, 0] S1x512x1.size inb_S1x512x1_S1x512x1_0_0_0

/-- The output buffer after the body, from the three input blocks: the one store, over the whole block. -/
def stored (x0 : Vec F S1x512x256 .f32) (x1 : Vec F S1x2048x256 .f32) (x2 : Vec F S1x512x1 .f32) : Vec F S1x512x256 .f32 :=
  View.canon [⟨rowsBox, k0_pay1 (View.ld x0 rowsBox) (View.ld x1 slabBox) (View.ld x2 maskBox)⟩]

/-- The store's box is the whole block, so it covers it. -/
theorem stored_covers (p0 : Vec F S1x512x256 .f32) (y : S1x512x256.Idx) :
    ∃ pc ∈ ([⟨rowsBox, p0⟩] : List (View.Piece (Elt F) S1x512x256 .f32)), y ∈ pc.1.set :=
  View.cover_of_tiled [⟨rowsBox, p0⟩] S1x512x256.size (by rfl) y

/-! ## The body's triple -/

set_option maxHeartbeats 1000000 in
/-- The body on whole staging memrefs, the inputs' at read contents `x0 x1 x2` and the output's at anything, runs to the
    continuation holding the inputs' as they were and the output's at `stored` of them. -/
theorem sound_kernel (c : Dev nD) (E : Set ℕ) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x512x1 .f32) (harg4 : arg4.IsWhole) (arg5 : Memref sig .tc .vmem S1x512x256 .f32) (harg5 : arg5.IsWhole)
    (x0 : Vec F S1x512x256 .f32) (x1 : Vec F S1x2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- The proof data on core `c`: the arrays as the region finds them; after the body at point `t` each input's buffer at
    its block and the output's at `stored` of the three blocks; the invariant is the scoped rest and the generator
    register, untouched; nothing owed; the shared array's share halved between windows 0 and 1. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) :
    (dat V c).after 3 t = stored (blockAt V c 0 t) (blockAt V c 1 t) (blockAt V c 2 t) := by dsimp only [dat]

theorem before0 (c : Dev nD) (t : Fin cfg0.N) (d) : (dat V c).before 0 t d = blockAt V c 0 t :=
  found0 V (dat V c) (A_eq V c 0) (after0 V c) t d
theorem before1 (c : Dev nD) (t : Fin cfg0.N) (d) : (dat V c).before 1 t d = blockAt V c 1 t :=
  found1 V (dat V c) (A_eq V c 1) (after1 V c) t d
theorem before2 (c : Dev nD) (t : Fin cfg0.N) (d) : (dat V c).before 2 t d = blockAt V c 2 t :=
  found2 V (dat V c) (A_eq V c 2) (after2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Frame

end
-- ==== Proof.KernelRun.lean ====
/-
  The whole program's run: the two host operations, then the kernel region, from the launch to the return.

  The host operations turn the integer mask into a float column; the region then runs the pipeline over the
  128 grid points. The thread state between the two is "every unscoped buffer at the contents the host operations
  leave". At the region's entry the activations' buffer, which TWO input windows read, is split along its share: the
  left half to window 0, the right half to window 1; at the exit both halves come back holding what they held and are
  joined again. The output array comes back holding the write-backs of all points, folded in point order
  (`arrAt 3 N`). Read against the final memory this gives: the result array at that fold, both arguments as launched.
-/
import proofs.«180703_j87960930222122_1_alg».proof.Proof.KernelBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the two boundaries -/

/-- Core `c`'s buffers at launch. -/
abbrev W0 : Dev nD → Valuation τ sig (Elt F) := fun c b => (s₀ m ρ).mem ((c : Dev nD), b)
/-- After the two host operations: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- Neither host operation writes an argument: at the region's entry both hold their launch contents. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))).trans rfl

/-! ## The proof data family and what rides beside the buffers -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)

/-- The host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

/-! ## The unscoped buffers and the windows' arrays, one by one -/

/-- The core's five unscoped buffers, each whole at the full share. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2)) :=
  bigSep_eq_bigSepL_of_eq [main_arg0, main_arg1, main_v0, main_v1, main_v2] (by decide) (by decide) _

/-- The four windows' arrays as the pipeline holds them: the activations' buffer twice, at the two halves of the
    full share; the mask column and the result at the full share. -/
theorem arrays_list (c : Dev nD) (A : (w : Fin cfg0.W) → Buf (Elt F) ((cfg0.win w).arr.view.loc (c.tc : Thread nD τ))) :
    (pdats m ρ 0 c).arrays A
      = iprop((((c : Thread nD τ).loc main_arg0) ↦{fullShare.left} A 0) ∗ (((c : Thread nD τ).loc main_arg0) ↦{fullShare.right} A 1)
          ∗ (((c : Thread nD τ).loc main_v1) ↦{fullShare} A 2) ∗ (((c : Thread nD τ).loc main_v2) ↦{fullShare} A 3)) := by
  have h : (pdats m ρ 0 c).arrays A
      = bigSep Finset.univ fun w : Fin 4 => ((((c.tc : Thread nD τ).loc (Pipeline.arrRef spec0 w)) ↦{(pdats m ρ 0 c).share w} A w : sProp 𝕄)) := by
    unfold Pipeline.Dat.arrays
    exact bigSep_congr fun w _ => by rw [(arr_whole0 w).set_eq_univ]
  rw [h, bigSep_W0]
  have s0 : (pdats m ρ 0 c).share 0 = fullShare.left := rfl
  have s1 : (pdats m ρ 0 c).share 1 = fullShare.right := rfl
  have s2 : (pdats m ρ 0 c).share 2 = fullShare := rfl
  have s3 : (pdats m ρ 0 c).share 3 = fullShare := rfl
  rw [s0, s1, s2, s3]

/-- The two halves of the activations' points-to, at one contents, are the whole. -/
theorem join_halves (c : Dev nD) (f : Buf (Elt F) ((c : Thread nD τ).loc main_arg0)) :
    iprop((((c : Thread nD τ).loc main_arg0) ↦{fullShare.left} f) ∗ (((c : Thread nD τ).loc main_arg0) ↦{fullShare.right} f))
      ⊢ ((((c : Thread nD τ).loc main_arg0) ↦{fullShare} f) : sProp 𝕄) :=
  (pointsTo_share (PosShare.mem_left_op_right fullShare)).2
theorem split_halves (c : Dev nD) (f : Buf (Elt F) ((c : Thread nD τ).loc main_arg0)) :
    ((((c : Thread nD τ).loc main_arg0) ↦{fullShare} f) : sProp 𝕄)
      ⊢ iprop((((c : Thread nD τ).loc main_arg0) ↦{fullShare.left} f) ∗ (((c : Thread nD τ).loc main_arg0) ↦{fullShare.right} f)) :=
  (pointsTo_share (PosShare.mem_left_op_right fullShare)).1

/-- What the region leaves of the buffers the claims speak of: the activations and the mask as entered, the result at
    the fold of the write-backs. -/
abbrev finalBufs (c : Dev nD) : sProp 𝕄 :=
  iprop((((c : Thread nD τ).loc main_arg0) ↦{fullShare} V1 m ρ c main_arg0) ∗ (((c : Thread nD τ).loc main_arg1) ↦{fullShare} V1 m ρ c main_arg1)
    ∗ (((c : Thread nD τ).loc main_v2) ↦{fullShare} (dat (V1 m ρ) c).arrAt 3 cfg0.N))

/-- The last thread state without the `owes`. -/
abbrev Tₙ (c : Dev nD) : sProp 𝕄 := iprop(finalBufs m ρ c ∗ ∃ r, prngReg c r)

/-! ## The region as a segment -/

set_option backward.isDefEq.respectTransparency.types false in
/-- The kernel region over the thread state: entered from every unscoped buffer at `W1`; the activations' buffer split
    between windows 0 and 1, the mask column and the result handed over whole; the mask words and the float mask
    bypass the region; the generator register goes into the class invariant and comes out; nothing owed; no
    semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop((((c : Thread nD τ).loc main_arg1) ↦{fullShare} V1 m ρ c main_arg1) ∗ (((c : Thread nD τ).loc main_v0) ↦{fullShare} V1 m ρ c main_v0))
  hentry c := by
    rw [Pipeline.ownSems0_none, ← Pipeline.unscopedBufs_held (Ix := Unit) (Name := ℕ) (U := UR sig nD τ) (Lvl := ℕ) c (W1 m ρ c),
      unscopedBufs_list, arrays_list]
    iintro ⟨⟨⟨Ha0, Ha1, Hv0, Hv1, Hv2⟩, Hp, HO⟩, -, -⟩
    ihave Hs := (split_halves c (V1 m ρ c main_arg0)) $$ Ha0
    icases Hs with ⟨HaL, HaR⟩
    imodintro
    isplitl [HaL HaR Hv1 Hv2]
    · isplitl [HaL]; · iexact HaL
      isplitl [HaR]; · iexact HaR
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Hv0
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [arrays_list, (pdats m ρ 0 c).arrAt_in 0 rfl, (pdats m ρ 0 c).arrAt_in 1 rfl]
    iintro ⟨⟨HaL, HaR, -, Hv2⟩, HO, HY, Ha1, -⟩
    imodintro
    isplitr [HO]
    · isplitr [HY]
      · isplitl [HaL HaR]
        · iapply (join_halves c (V1 m ρ c main_arg0))
          isplitl [HaL]; · iexact HaL
          iexact HaR
        isplitl [Ha1]; · iexact Ha1
        iexact Hv2
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ) ]

theorem main_run (c : Dev nD) : main (F := F) c = Pipeline.Seg.run (segs m ρ) := (main_chain c).trans (by chain_rfl)

set_option backward.isDefEq.respectTransparency.types false in
/-- THE RUN, at any `F`: every weakly fair execution of @main on the TensorCores terminates, nothing faulting, and every
    final state has the result array at the fold of the pipeline's write-backs and both argument arrays as launched. -/
theorem run_main : θ_run defs (onTc (τ := τ) (main (F := F))) ⟨m, fun _ => 0, ρ⟩ (fun r => ∀ c : Dev nD,
      r.2.mem ((c.tc : Thread nD τ).loc main_v2) = (dat (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = V1 m ρ c main_arg0
      ∧ s.mem ((c.tc : Thread nD τ).loc main_arg1) = V1 m ρ c main_arg1
      ∧ s.mem ((c.tc : Thread nD τ).loc main_v2) = (dat (V1 m ρ) c).arrAt 3 cfg0.N)
    (hfin := fun c s' => by
      iintro ⟨⟨⟨H0, H1, H2⟩, -⟩, HSI⟩
      imodintro
      icombine HSI H0 gives %h0
      icombine HSI H1 gives %h1
      icombine HSI H2 gives %h2
      isplitr
      · ipureintro
        exact ⟨Buf.eq_of_forall_mem_univ h0, Buf.eq_of_forall_mem_univ h1, Buf.eq_of_forall_mem_univ h2⟩
      iexact HSI)
    (hQ := fun s h c => ⟨(h c).2.2, (h c).1.trans (V1_main_arg0 m ρ c), (h c).2.1.trans (V1_main_arg1 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Frame

end
-- ==== Proof.KernelIdealBody.lean ====
/-
  The kernel body at one grid point, as a separation-logic triple, and the pipeline's proof data.

  At point `t = (b, q)` the pipeline hands the body four staging buffers: rows `512 q … 512 q + 511` of batch `b` of the
  activations (window 0), ALL 2048 rows of batch `b` of the same array (window 1: its block index ignores `q`, so the
  pipeline fetches it only when `b` changes and the buffer still holds it at the other points), the mask column of the
  same rows (window 2), and the output block (window 3). The body loads the three inputs whole, loads the output
  buffer without using what it read, and stores ONE value over the whole output block. So after the body the
  inputs' buffers hold what they held and the output's holds that value — the pieces of the store, of which there
  is one, covering the block.

  Windows 0 and 1 read one array. The array's points-to is therefore held half and half: window 0 the left half of the
  full share, window 1 the right half; reading needs no more.
-/
import proofs.«180703_j87960930222122_1_alg».proof.Proof.Gen.KernelIdeal.Launch
import proofs.«180703_j87960930222122_1_alg».proof.Proof.Gen.KernelIdeal.Skeleton
import proofs.«180703_j87960930222122_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not: where the
    pipeline does not fetch, the block index has not moved since the last fetch. Windows 0, 1 and 2 in turn. -/
theorem found0 {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body touches: each buffer whole -/

abbrev rowsBox : Rect S1x512x256 := Rect.unit (s := S1x512x256) ![0, 0, 0] S1x512x256.size inb_S1x512x256_S1x512x256_0_0_0
abbrev slabBox : Rect S1x2048x256 := Rect.unit (s := S1x2048x256) ![0, 0, 0] S1x2048x256.size inb_S1x2048x256_S1x2048x256_0_0_0
abbrev maskBox : Rect S1x512x1 := Rect.unit (s := S1x512x1) ![0, 0, 0] S1x512x1.size inb_S1x512x1_S1x512x1_0_0_0

/-- The output buffer after the body, from the three input blocks: the one store, over the whole block. -/
def stored (x0 : Vec F S1x512x256 .f32) (x1 : Vec F S1x2048x256 .f32) (x2 : Vec F S1x512x1 .f32) : Vec F S1x512x256 .f32 :=
  View.canon [⟨rowsBox, k0_pay1 (View.ld x0 rowsBox) (View.ld x1 slabBox) (View.ld x2 maskBox)⟩]

/-- The store's box is the whole block, so it covers it. -/
theorem stored_covers (p0 : Vec F S1x512x256 .f32) (y : S1x512x256.Idx) :
    ∃ pc ∈ ([⟨rowsBox, p0⟩] : List (View.Piece (Elt F) S1x512x256 .f32)), y ∈ pc.1.set :=
  View.cover_of_tiled [⟨rowsBox, p0⟩] S1x512x256.size (by rfl) y

/-! ## The body's triple -/

set_option maxHeartbeats 1000000 in
/-- The body on whole staging memrefs, the inputs' at read contents `x0 x1 x2` and the output's at anything, runs to the
    continuation holding the inputs' as they were and the output's at `stored` of them. -/
theorem sound_kernel (c : Dev nD) (E : Set ℕ) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x512x1 .f32) (harg4 : arg4.IsWhole) (arg5 : Memref sig .tc .vmem S1x512x256 .f32) (harg5 : arg5.IsWhole)
    (x0 : Vec F S1x512x256 .f32) (x1 : Vec F S1x2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- The proof data on core `c`: the arrays as the region finds them; after the body at point `t` each input's buffer at
    its block and the output's at `stored` of the three blocks; the invariant is the scoped rest and the generator
    register, untouched; nothing owed; the shared array's share halved between windows 0 and 1. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) :
    (dat V c).after 3 t = stored (blockAt V c 0 t) (blockAt V c 1 t) (blockAt V c 2 t) := by dsimp only [dat]

theorem before0 (c : Dev nD) (t : Fin cfg0.N) (d) : (dat V c).before 0 t d = blockAt V c 0 t :=
  found0 V (dat V c) (A_eq V c 0) (after0 V c) t d
theorem before1 (c : Dev nD) (t : Fin cfg0.N) (d) : (dat V c).before 1 t d = blockAt V c 1 t :=
  found1 V (dat V c) (A_eq V c 1) (after1 V c) t d
theorem before2 (c : Dev nD) (t : Fin cfg0.N) (d) : (dat V c).before 2 t d = blockAt V c 2 t :=
  found2 V (dat V c) (A_eq V c 2) (after2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Frame

end
-- ==== Proof.KernelIdealRun.lean ====
/-
  The whole program's run: the two host operations, then the kernel region, from the launch to the return.

  The host operations turn the integer mask into a float column; the region then runs the pipeline over the
  128 grid points. The thread state between the two is "every unscoped buffer at the contents the host operations
  leave". At the region's entry the activations' buffer, which TWO input windows read, is split along its share: the
  left half to window 0, the right half to window 1; at the exit both halves come back holding what they held and are
  joined again. The output array comes back holding the write-backs of all points, folded in point order
  (`arrAt 3 N`). Read against the final memory this gives: the result array at that fold, both arguments as launched.
-/
import proofs.«180703_j87960930222122_1_alg».proof.Proof.KernelIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the two boundaries -/

/-- Core `c`'s buffers at launch. -/
abbrev W0 : Dev nD → Valuation τ sig (Elt F) := fun c b => (s₀ m ρ).mem ((c : Dev nD), b)
/-- After the two host operations: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- Neither host operation writes an argument: at the region's entry both hold their launch contents. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))).trans rfl

/-! ## The proof data family and what rides beside the buffers -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)

/-- The host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

/-! ## The unscoped buffers and the windows' arrays, one by one -/

/-- The core's five unscoped buffers, each whole at the full share. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2)) :=
  bigSep_eq_bigSepL_of_eq [main_arg0, main_arg1, main_v0, main_v1, main_v2] (by decide) (by decide) _

/-- The four windows' arrays as the pipeline holds them: the activations' buffer twice, at the two halves of the
    full share; the mask column and the result at the full share. -/
theorem arrays_list (c : Dev nD) (A : (w : Fin cfg0.W) → Buf (Elt F) ((cfg0.win w).arr.view.loc (c.tc : Thread nD τ))) :
    (pdats m ρ 0 c).arrays A
      = iprop((((c : Thread nD τ).loc main_arg0) ↦{fullShare.left} A 0) ∗ (((c : Thread nD τ).loc main_arg0) ↦{fullShare.right} A 1)
          ∗ (((c : Thread nD τ).loc main_v1) ↦{fullShare} A 2) ∗ (((c : Thread nD τ).loc main_v2) ↦{fullShare} A 3)) := by
  have h : (pdats m ρ 0 c).arrays A
      = bigSep Finset.univ fun w : Fin 4 => ((((c.tc : Thread nD τ).loc (Pipeline.arrRef spec0 w)) ↦{(pdats m ρ 0 c).share w} A w : sProp 𝕄)) := by
    unfold Pipeline.Dat.arrays
    exact bigSep_congr fun w _ => by rw [(arr_whole0 w).set_eq_univ]
  rw [h, bigSep_W0]
  have s0 : (pdats m ρ 0 c).share 0 = fullShare.left := rfl
  have s1 : (pdats m ρ 0 c).share 1 = fullShare.right := rfl
  have s2 : (pdats m ρ 0 c).share 2 = fullShare := rfl
  have s3 : (pdats m ρ 0 c).share 3 = fullShare := rfl
  rw [s0, s1, s2, s3]

/-- The two halves of the activations' points-to, at one contents, are the whole. -/
theorem join_halves (c : Dev nD) (f : Buf (Elt F) ((c : Thread nD τ).loc main_arg0)) :
    iprop((((c : Thread nD τ).loc main_arg0) ↦{fullShare.left} f) ∗ (((c : Thread nD τ).loc main_arg0) ↦{fullShare.right} f))
      ⊢ ((((c : Thread nD τ).loc main_arg0) ↦{fullShare} f) : sProp 𝕄) :=
  (pointsTo_share (PosShare.mem_left_op_right fullShare)).2
theorem split_halves (c : Dev nD) (f : Buf (Elt F) ((c : Thread nD τ).loc main_arg0)) :
    ((((c : Thread nD τ).loc main_arg0) ↦{fullShare} f) : sProp 𝕄)
      ⊢ iprop((((c : Thread nD τ).loc main_arg0) ↦{fullShare.left} f) ∗ (((c : Thread nD τ).loc main_arg0) ↦{fullShare.right} f)) :=
  (pointsTo_share (PosShare.mem_left_op_right fullShare)).1

/-- What the region leaves of the buffers the claims speak of: the activations and the mask as entered, the result at
    the fold of the write-backs. -/
abbrev finalBufs (c : Dev nD) : sProp 𝕄 :=
  iprop((((c : Thread nD τ).loc main_arg0) ↦{fullShare} V1 m ρ c main_arg0) ∗ (((c : Thread nD τ).loc main_arg1) ↦{fullShare} V1 m ρ c main_arg1)
    ∗ (((c : Thread nD τ).loc main_v2) ↦{fullShare} (dat (V1 m ρ) c).arrAt 3 cfg0.N))

/-- The last thread state without the `owes`. -/
abbrev Tₙ (c : Dev nD) : sProp 𝕄 := iprop(finalBufs m ρ c ∗ ∃ r, prngReg c r)

/-! ## The region as a segment -/

set_option backward.isDefEq.respectTransparency.types false in
/-- The kernel region over the thread state: entered from every unscoped buffer at `W1`; the activations' buffer split
    between windows 0 and 1, the mask column and the result handed over whole; the mask words and the float mask
    bypass the region; the generator register goes into the class invariant and comes out; nothing owed; no
    semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop((((c : Thread nD τ).loc main_arg1) ↦{fullShare} V1 m ρ c main_arg1) ∗ (((c : Thread nD τ).loc main_v0) ↦{fullShare} V1 m ρ c main_v0))
  hentry c := by
    rw [Pipeline.ownSems0_none, ← Pipeline.unscopedBufs_held (Ix := Unit) (Name := ℕ) (U := UR sig nD τ) (Lvl := ℕ) c (W1 m ρ c),
      unscopedBufs_list, arrays_list]
    iintro ⟨⟨⟨Ha0, Ha1, Hv0, Hv1, Hv2⟩, Hp, HO⟩, -, -⟩
    ihave Hs := (split_halves c (V1 m ρ c main_arg0)) $$ Ha0
    icases Hs with ⟨HaL, HaR⟩
    imodintro
    isplitl [HaL HaR Hv1 Hv2]
    · isplitl [HaL]; · iexact HaL
      isplitl [HaR]; · iexact HaR
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Hv0
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [arrays_list, (pdats m ρ 0 c).arrAt_in 0 rfl, (pdats m ρ 0 c).arrAt_in 1 rfl]
    iintro ⟨⟨HaL, HaR, -, Hv2⟩, HO, HY, Ha1, -⟩
    imodintro
    isplitr [HO]
    · isplitr [HY]
      · isplitl [HaL HaR]
        · iapply (join_halves c (V1 m ρ c main_arg0))
          isplitl [HaL]; · iexact HaL
          iexact HaR
        isplitl [Ha1]; · iexact Ha1
        iexact Hv2
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ) ]

theorem main_run (c : Dev nD) : main (F := F) c = Pipeline.Seg.run (segs m ρ) := (main_chain c).trans (by chain_rfl)

set_option backward.isDefEq.respectTransparency.types false in
/-- THE RUN, at any `F`: every weakly fair execution of @main on the TensorCores terminates, nothing faulting, and every
    final state has the result array at the fold of the pipeline's write-backs and both argument arrays as launched. -/
theorem run_main : θ_run defs (onTc (τ := τ) (main (F := F))) ⟨m, fun _ => 0, ρ⟩ (fun r => ∀ c : Dev nD,
      r.2.mem ((c.tc : Thread nD τ).loc main_v2) = (dat (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = V1 m ρ c main_arg0
      ∧ s.mem ((c.tc : Thread nD τ).loc main_arg1) = V1 m ρ c main_arg1
      ∧ s.mem ((c.tc : Thread nD τ).loc main_v2) = (dat (V1 m ρ) c).arrAt 3 cfg0.N)
    (hfin := fun c s' => by
      iintro ⟨⟨⟨H0, H1, H2⟩, -⟩, HSI⟩
      imodintro
      icombine HSI H0 gives %h0
      icombine HSI H1 gives %h1
      icombine HSI H2 gives %h2
      isplitr
      · ipureintro
        exact ⟨Buf.eq_of_forall_mem_univ h0, Buf.eq_of_forall_mem_univ h1, Buf.eq_of_forall_mem_univ h2⟩
      iexact HSI)
    (hQ := fun s h c => ⟨(h c).2.2, (h c).1.trans (V1_main_arg0 m ρ c), (h c).2.1.trans (V1_main_arg1 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Frame

end
-- ==== Proof.Attention.lean ====
/-
  Masked dense self-attention with keys and values equal to the queries, on the extended reals.

  For a batch `b`, a query row `r` and a key row `k` the score is the inner product `x[b,r,·] · x[b,k,·]`, the
  weight of the pair is its exponential, and the attended value at feature `d` is the weighted sum of the rows
  `x[b,k,d]` divided by the weights' sum plus `ε`, times the row's mask (`attendAt`).

  The other arrangement (`refAt`) masks every weight of column `j` first, normalises each masked weight by the
  column's masked sum plus `ε`, and only then sums against the rows. The two agree when every entry of `x` is a
  real number and the mask is `0` or `1`: for mask `1` the division by a positive real distributes over the sum,
  for mask `0` both sides are `0`. (For a mask of `2` they differ: `2N / (2E + ε)` against `2N / (E + ε)`.)
-/
import Idealize.ShloMosaic.PureOps.Ideal
import Idealize.ShloMosaic.Lib.ValueIdx

noncomputable section

namespace Cert.Attention

open Idealize.ShloMosaic Idealize.ShloMosaic.ValueIdx

/-- The activations: 32 batches of 2048 rows of 256 features. -/
abbrev SX : Shape := ⟨3, ![32, 2048, 256]⟩
/-- The mask: one word per batch and row. -/
abbrev SM : Shape := ⟨2, ![32, 2048]⟩

/-- The `ε` both programs add to the normaliser: the single-precision word nearest `1e-7`, read exactly. -/
def eps : EReal := Ideal.ofBits .f32 0x33D6BF95#32

/-- The mask as extended reals: each word read as a signed integer, exactly. -/
def maskF (mk : SM.Idx → BitVec 32) : SM.Idx → EReal := fun j => FloatOps.sitofp (F := Ideal) .f32 (mk j)

/-- The inner product of rows `r` and `k` of batch `b`. -/
def score (x : SX.Idx → EReal) (b : Fin 32) (r k : Fin 2048) : EReal :=
  ∑ e : Fin 256, x (ix3 b r e) * x (ix3 b k e)

/-- Row `r` of batch `b` attended over all rows, at feature `d`: the exponential weights' sum against the rows,
    over the weights' sum plus `ε`, times the row's mask. -/
def attendAt (x : SX.Idx → EReal) (mf : SM.Idx → EReal) (b : Fin 32) (r : Fin 2048) (d : Fin 256) : EReal :=
  Ideal.div (∑ k : Fin 2048, Ideal.exp (score x b r k) * x (ix3 b k d))
      ((∑ k : Fin 2048, Ideal.exp (score x b r k)) + eps) * mf (ix2 b r)

/-- The same as one array. -/
def attend (x : SX.Idx → EReal) (mf : SM.Idx → EReal) : SX.Idx → EReal := fun i =>
  attendAt x mf ⟨(i 0).val, (i 0).isLt⟩ ⟨(i 1).val, (i 1).isLt⟩ ⟨(i 2).val, (i 2).isLt⟩

theorem attend_ix3 (x : SX.Idx → EReal) (mf : SM.Idx → EReal) (b : Fin 32) (r : Fin 2048) (d : Fin 256) :
    attend x mf (ix3 b r d) = attendAt x mf b r d := rfl

/-- The column-normalised arrangement: every weight of column `j` masked, divided by the column's masked sum plus
    `ε`, then summed against the rows. -/
def refAt (x : SX.Idx → EReal) (mf : SM.Idx → EReal) (b : Fin 32) (j : Fin 2048) (d : Fin 256) : EReal :=
  ∑ k : Fin 2048, Ideal.div (Ideal.exp (score x b k j) * mf (ix2 b j))
      ((∑ k' : Fin 2048, Ideal.exp (score x b k' j) * mf (ix2 b j)) + eps) * x (ix3 b k d)

end Cert.Attention

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.KernelPayload.lean ====
/-
  The value the kernel body stores, read at one index, on the extended reals.

  The body takes a block of 512 query rows and all 2048 key rows of one batch (the keys are also the values), both
  with 256 features, and the 512 mask words of the query rows. Its arithmetic is: the scores, the product of the query
  block with the transposed keys; their exponentials, the weights; each row's sum of weights, kept as a column; the
  product of the weights with the keys; that product divided, row by row, by the row's sum plus a constant; the quotient
  times the row's mask. The narrowing format changes in between are the identity on the extended reals.

  Read at row p and feature d this is
    (Σ k, exp (Σ e, q[p,e] · x[k,e]) · x[k,d]) / ((Σ k, exp (Σ e, q[p,e] · x[k,e])) + ε) · m[p].
  Each operation that moves data (a cast that adds or drops a unit axis, the transpose, the broadcast of a column along
  its rows) is read at literal coordinates; each of the two products is a plain rows × contraction by contraction ×
  columns product, a sum over the contracted coordinate; the reduction over the second axis is the sum over that
  coordinate.
-/
import proofs.«180703_j87960930222122_1_alg».proof.Proof.Gen.KernelIdeal.Skeleton
import proofs.«180703_j87960930222122_1_alg».proof.Proof.Attention
import proofs.«180703_j87960930222122_1_alg».proof.Proof.LibKeepdims
import proofs.«180703_j87960930222122_1_alg».proof.Proof.LibHostRead
import Idealize.ShloMosaic.Lib.ValueLayout

noncomputable section

namespace Cert.KernelIdeal.Payload

open Idealize.ShloMosaic Idealize.ShloMosaic.ValueIdx
open Cert.KernelIdeal Cert.KernelIdeal.Facts₀ Cert.LibKeepdims Cert.LibHostRead

variable [Cert.KernelIdeal.Facts]

/-- The scores' product is plain: 512 × 256 by 256 × 2048, contracted over the 256 features. -/
theorem plainDot_scores : PlainDot dot_S512x256_S256x2048_S512x2048_1_0_0_1_n_n where
  hr := rfl
  hs := rfl
  hl0 := fun i q => by
    unfold DotDims.lhsIdx
    rw [dif_neg (show ¬(0 : Fin S512x256.rank) ∈ dot_S512x256_S256x2048_S512x2048_1_0_0_1_n_n.lhsBatch by decide),
      dif_pos (show (0 : Fin S512x256.rank) ∈ dot_S512x256_S256x2048_S512x2048_1_0_0_1_n_n.lhsNonContracting by decide)]
    rfl
  hl1 := fun i q => dot_S512x256_S256x2048_S512x2048_1_0_0_1_n_n.lhsIdx_val_of_single rfl i q
  hr0 := fun i q => dot_S512x256_S256x2048_S512x2048_1_0_0_1_n_n.rhsIdx_val_of_single rfl i q
  hr1 := fun i q => by
    unfold DotDims.rhsIdx
    rw [dif_neg (show ¬(1 : Fin S256x2048.rank) ∈ dot_S512x256_S256x2048_S512x2048_1_0_0_1_n_n.rhsBatch by decide),
      dif_pos (show (1 : Fin S256x2048.rank) ∈ dot_S512x256_S256x2048_S512x2048_1_0_0_1_n_n.rhsNonContracting by decide)]
    rfl

/-- The product of the weights with the rows is plain: 512 × 2048 by 2048 × 256, contracted over the 2048 rows. -/
theorem plainDot_values : PlainDot dot_S512x2048_S2048x256_S512x256_1_0_0_1_n_n where
  hr := rfl
  hs := rfl
  hl0 := fun i q => by
    unfold DotDims.lhsIdx
    rw [dif_neg (show ¬(0 : Fin S512x2048.rank) ∈ dot_S512x2048_S2048x256_S512x256_1_0_0_1_n_n.lhsBatch by decide),
      dif_pos (show (0 : Fin S512x2048.rank) ∈ dot_S512x2048_S2048x256_S512x256_1_0_0_1_n_n.lhsNonContracting by decide)]
    rfl
  hl1 := fun i q => dot_S512x2048_S2048x256_S512x256_1_0_0_1_n_n.lhsIdx_val_of_single rfl i q
  hr0 := fun i q => dot_S512x2048_S2048x256_S512x256_1_0_0_1_n_n.rhsIdx_val_of_single rfl i q
  hr1 := fun i q => by
    unfold DotDims.rhsIdx
    rw [dif_neg (show ¬(1 : Fin S2048x256.rank) ∈ dot_S512x2048_S2048x256_S512x256_1_0_0_1_n_n.rhsBatch by decide),
      dif_pos (show (1 : Fin S2048x256.rank) ∈ dot_S512x2048_S2048x256_S512x256_1_0_0_1_n_n.rhsNonContracting by decide)]
    rfl

/-- The scores at (p, k): the product of the query block with the transposed rows is the inner product of query row
    p with row k. -/
theorem scores_at (a : FVec Ideal S512x256 .bf16) (b : FVec Ideal S2048x256 .bf16) (p : Fin 512) (k : Fin 2048) :
    matmul dot_S512x256_S256x2048_S512x2048_1_0_0_1_n_n none a (transpose S256x2048 [1, 0] b transposes_S2048x256_p1_0_S256x2048)
        (constant (F := Ideal) S512x2048 .f32 0x00000000#32) (ix2 p k)
      = ∑ e : Fin 256, a (ix2 p e) * b (ix2 k e) := by
  refine (matmul_plain_zero_apply dot_S512x256_S256x2048_S512x2048_1_0_0_1_n_n plainDot_scores a _ p k).trans ?_
  refine Finset.sum_congr rfl fun e _ => ?_
  exact congrArg (a (ix2 p e) * ·) (transpose_ix2_apply b transposes_S2048x256_p1_0_S256x2048 e k)

/-- The reduction over the second axis at row p: the sum of the row's 2048 entries. -/
theorem rowsum_at (w : FVec Ideal S512x2048 .f32) (hφ : FKind.Formats .f32)
    (hacc : (0x00000000#32 : BitVec 32) = FKind.add.neutral .f32 hφ) (p : Fin 512) :
    multiReduction .add [1] S512 w 0x00000000#32 reduces_S512x2048_S512 hφ hacc (ix1 p) = ∑ k : Fin 2048, w (ix2 p k) := by
  refine (Ideal.multiReduction_add_single w _ reduces_S512x2048_S512 hφ hacc (ix1 p)).trans ?_
  show ∑ k : Fin 2048, w (reduces_S512x2048_S512.lift (ix1 p) k) = ∑ k : Fin 2048, w (ix2 p k)
  refine Finset.sum_congr rfl fun k _ => congrArg w ?_
  funext c
  match c with
  | ⟨0, _⟩ => rfl
  | ⟨1, _⟩ => rfl

theorem payload_at (v0 : Vec Ideal Cert.KernelIdeal.S1x512x256 .f32) (v3 : Vec Ideal Cert.KernelIdeal.S1x2048x256 .f32) (v17 : Vec Ideal Cert.KernelIdeal.S1x512x1 .f32)
    (p : Fin 512) (d : Fin 256) :
    Cert.KernelIdeal.Gen.k0_pay1 (F := Ideal) v0 v3 v17 (ValueIdx.ix3 (0 : Fin 1) p d)
      = Ideal.div (∑ k : Fin 2048, Ideal.exp (∑ e : Fin 256, v0 (ValueIdx.ix3 (0 : Fin 1) p e) * v3 (ValueIdx.ix3 (0 : Fin 1) k e)) * v3 (ValueIdx.ix3 (0 : Fin 1) k d))
          ((∑ k : Fin 2048, Ideal.exp (∑ e : Fin 256, v0 (ValueIdx.ix3 (0 : Fin 1) p e) * v3 (ValueIdx.ix3 (0 : Fin 1) k e))) + Cert.Attention.eps)
        * v17 (ValueIdx.ix3 (0 : Fin 1) p (0 : Fin 1)) := by
  -- the weight of the pair (p, k), whichever of its two uses reads it
  have weight : ∀ k : Fin 2048,
      Ideal.exp (matmul dot_S512x256_S256x2048_S512x2048_1_0_0_1_n_n none
          (truncf .bf16 (shapeCast S512x256 v0 shapeCasts_S1x512x256_S512x256) bitsLt_bf16_f32 : FVec Ideal S512x256 .bf16)
          (transpose S256x2048 [1, 0]
            (truncf .bf16 (shapeCast S2048x256 v3 shapeCasts_S1x2048x256_S2048x256) bitsLt_bf16_f32 : FVec Ideal S2048x256 .bf16)
            transposes_S2048x256_p1_0_S256x2048)
          (constant (F := Ideal) S512x2048 .f32 0x00000000#32) (ix2 p k))
        = Ideal.exp (∑ e : Fin 256, v0 (ix3 (0 : Fin 1) p e) * v3 (ix3 (0 : Fin 1) k e)) := fun k => by
    refine congrArg Ideal.exp ((scores_at _ _ p k).trans ?_)
    refine Finset.sum_congr rfl fun e _ => ?_
    exact congrArg₂ (· * ·) (shapeCast_1ab_ab_apply v0 shapeCasts_S1x512x256_S512x256 p e)
      (shapeCast_1ab_ab_apply v3 shapeCasts_S1x2048x256_S2048x256 k e)
  unfold Cert.KernelIdeal.Gen.k0_pay1
  refine (shapeCast_ab_1ab_apply _ shapeCasts_S512x256_S1x512x256 (0 : Fin 1) p d).trans ?_
  refine (mulf_apply _ _ (ix2 p d)).trans ?_
  refine congrArg₂ (· * ·) ?_ ?_
  · refine (divf_apply _ _ (ix2 p d)).trans ?_
    refine congrArg₂ Ideal.div ?_ ?_
    · -- the numerator: the weights against the rows
      refine (matmul_plain_zero_apply dot_S512x2048_S2048x256_S512x256_1_0_0_1_n_n plainDot_values _ _ p d).trans ?_
      refine Finset.sum_congr rfl fun k _ => ?_
      exact congrArg₂ (· * ·) (weight k) (shapeCast_1ab_ab_apply v3 shapeCasts_S1x2048x256_S2048x256 k d)
    · -- the normaliser: the row's sum of weights, kept as a column and spread along the row, plus the constant
      refine (broadcastTo_a1_ab_apply _ broadcasts_S512x1_S512x256 p d).trans ?_
      refine (addf_apply _ _ (ix2 p (0 : Fin 1))).trans ?_
      refine congrArg₂ (· + ·) ?_ rfl
      refine (shapeCast_a_a1_apply _ shapeCasts_S512_S512x1 p (0 : Fin 1)).trans ?_
      refine (rowsum_at _ _ _ p).trans ?_
      exact Finset.sum_congr rfl fun k _ => weight k
  · -- the mask: the block's column spread along the row
    refine (broadcastTo_a1_ab_apply _ broadcasts_S512x1_S512x256 p d).trans ?_
    exact shapeCast_1ab_ab_apply v17 shapeCasts_S1x512x1_S512x1 p (0 : Fin 1)

end Cert.KernelIdeal.Payload

end
-- ==== Proof.KernelIdealValue.lean ====
/-
  What the idealized kernel's result array holds after the run: masked self-attention of the activations, index by index.

  Point `t = (b, q)` of the grid writes back rows `512 q … 512 q + 511` of batch `b`. The body's value at row `p` of that
  block and feature `d` is the attended value of row `512 q + p` of batch `b`: the first input block is that row range of
  the activations, the second is ALL rows of batch `b` (its block index ignores `q`), the third is the same row range of
  the mask column. The 128 blocks tile the array — the block holding row `r` of batch `b` is point `(b, r / 512)`'s — so the
  array ends holding that one function everywhere.
-/
import proofs.«180703_j87960930222122_1_alg».proof.Proof.KernelIdealRun
import proofs.«180703_j87960930222122_1_alg».proof.Proof.KernelPayload
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

/-! ## One block's value, over plain variables -/

/-- Row `p` of block `q`. -/
def row (q : Fin 4) (p : Fin 512) : Fin 2048 := ⟨q.val * 512 + p.val, by have := q.isLt; have := p.isLt; omega⟩

/-- A mask column `[32, 2048, 1]` read as a mask `[32, 2048]`. -/
def colMask (mcol : S32x2048x1.Idx → EReal) : Cert.Attention.SM.Idx → EReal :=
  fun j => mcol (ix3 (⟨(j 0).val, (j 0).isLt⟩ : Fin 32) (⟨(j 1).val, (j 1).isLt⟩ : Fin 2048) (0 : Fin 1))

/-- When the three loaded blocks are rows `512 q + ·` of batch `b` of `x`, all rows of batch `b` of `x`, and the same rows of
    the mask column, the body's value at `(p, d)` is the attended value of row `512 q + p` of batch `b` at feature `d`. -/
theorem block_value (x : S32x2048x256.Idx → EReal) (mcol : S32x2048x1.Idx → EReal)
    (v0 : Vec Ideal S1x512x256 .f32) (v3 : Vec Ideal S1x2048x256 .f32) (v17 : Vec Ideal S1x512x1 .f32) (b : Fin 32) (q : Fin 4)
    (h0 : ∀ (p : Fin 512) (e : Fin 256), v0 (ix3 (0 : Fin 1) p e) = x (ix3 b (row q p) e))
    (h3 : ∀ (k : Fin 2048) (e : Fin 256), v3 (ix3 (0 : Fin 1) k e) = x (ix3 b k e))
    (h17 : ∀ p : Fin 512, v17 (ix3 (0 : Fin 1) p (0 : Fin 1)) = mcol (ix3 b (row q p) (0 : Fin 1)))
    (j : S1x512x256.Idx) :
    k0_pay1 (F := Ideal) v0 v3 v17 j
      = Cert.Attention.attendAt x (colMask mcol) b (row q ⟨(j 1).val, (j 1).isLt⟩) ⟨(j 2).val, (j 2).isLt⟩ := by
  obtain ⟨z, p, d, rfl⟩ : ∃ (z : Fin 1) (p : Fin 512) (d : Fin 256), j = ix3 z p d := ⟨j 0, j 1, j 2, eq_ix3 j⟩
  obtain rfl : z = 0 := Subsingleton.elim _ _
  refine (Cert.KernelIdeal.Payload.payload_at v0 v3 v17 p d).trans ?_
  simp only [h0, h3, h17]
  rfl

/-! ## The windows' block indices, decided over the 128 points -/

theorem hz : (![0, 0, 0] : Fin 3 → Nat) = fun _ => 0 := funext fun a => by fin_cases a <;> rfl

/-- Windows 0 and 2 move with the output window; window 1 follows its batch only; nobody moves along the last axis; the
    output's block indices stay in their ranges. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3) ∧ win0_2.index t (2 : Fin 3) = 0
    ∧ win0_3.index t (2 : Fin 3) = 0 ∧ win0_3.index t (0 : Fin 3) ≤ 31 ∧ win0_3.index t (1 : Fin 3) ≤ 3 :=
  (by decide +kernel : ∀ t : Fin grid0.N, _)

/-- Every block of the array is some point's. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-! ## What each point writes back -/

variable (V : (c : Dev nD) → (b : Ref sig .tc) → Buf (Elt Ideal) ((c : Thread nD τ).loc b))

/-- The array the result ends at: the activations attended under the mask column. -/
def attended (c : Dev nD) : S32x2048x256.Idx → EReal :=
  Cert.Attention.attend (V c main_arg0 : S32x2048x256.Idx → EReal) (colMask (V c main_v1 : S32x2048x1.Idx → EReal))

set_option maxHeartbeats 1000000 in
/-- WHAT POINT `t` WRITES BACK is block `t` of `attended`. -/
theorem flushed_eq (c : Dev nD) (t : Fin cfg0.N) :
    (dat V c).flushed 3 t = ((cfg0.win 3).blk t).view.read (Elt Ideal) (attended V c) := by
  show (cfg0.win 3).cut (grid0.coords t) ((dat V c).after 3 t) = _
  rw [after3]
  unfold stored
  rw [View.canon_unit_zero hz]
  simp only [View.ld_unit_zero (S := S1x512x256) hz, View.ld_unit_zero (S := S1x2048x256) hz, View.ld_unit_zero (S := S1x512x1) hz]
  obtain ⟨e00, e01, e02, e10, e11, e12, e20, e21, e22, e32, hb, hq⟩ := idx_facts t
  funext j
  have hj0 : (j 0).val < 1 := (j 0).isLt
  have hj1 : (j 1).val < 512 := (j 1).isLt
  have hj2 : (j 2).val < 256 := (j 2).isLt
  let b : Fin 32 := ⟨win0_3.index t (0 : Fin 3), by omega⟩
  let q : Fin 4 := ⟨win0_3.index t (1 : Fin 3), by omega⟩
  have hemb : ((cfg0.win 3).blk t).view.emb j = (ix3 b (row q ⟨(j 1).val, hj1⟩) (⟨(j 2).val, hj2⟩ : Fin 256) : S32x2048x256.Idx) := by
    funext a; apply Fin.ext
    match a with
    | ⟨0, _⟩ => show win0_3.index t (0 : Fin 3) * 1 + 1 * (j 0).val = win0_3.index t (0 : Fin 3); omega
    | ⟨1, _⟩ => show win0_3.index t (1 : Fin 3) * 512 + 1 * (j 1).val = win0_3.index t (1 : Fin 3) * 512 + (j 1).val; omega
    | ⟨2, _⟩ => show win0_3.index t (2 : Fin 3) * 256 + 1 * (j 2).val = (j 2).val; omega
  refine (block_value (V c main_arg0 : S32x2048x256.Idx → EReal) (V c main_v1 : S32x2048x1.Idx → EReal)
    (blockAt V c 0 t) (blockAt V c 1 t) (blockAt V c 2 t) b q ?_ ?_ ?_ j).trans ?_
  · intro p e
    show (V c main_arg0 : S32x2048x256.Idx → EReal) (((cfg0.win 0).blk t).view.emb (ix3 (0 : Fin 1) p e)) = _
    refine congrArg (V c main_arg0 : S32x2048x256.Idx → EReal) ?_
    funext a; apply Fin.ext
    have hp : p.val < 512 := p.isLt
    match a with
    | ⟨0, _⟩ => show win0_0.index t (0 : Fin 3) * 1 + 1 * 0 = win0_3.index t (0 : Fin 3); omega
    | ⟨1, _⟩ => show win0_0.index t (1 : Fin 3) * 512 + 1 * p.val = win0_3.index t (1 : Fin 3) * 512 + p.val; omega
    | ⟨2, _⟩ => show win0_0.index t (2 : Fin 3) * 256 + 1 * e.val = e.val; omega
  · intro k e
    show (V c main_arg0 : S32x2048x256.Idx → EReal) (((cfg0.win 1).blk t).view.emb (ix3 (0 : Fin 1) k e)) = _
    refine congrArg (V c main_arg0 : S32x2048x256.Idx → EReal) ?_
    funext a; apply Fin.ext
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 256 + 1 * e.val = e.val; omega
  · intro p
    show (V c main_v1 : S32x2048x1.Idx → EReal) (((cfg0.win 2).blk t).view.emb (ix3 (0 : Fin 1) p (0 : Fin 1))) = _
    refine congrArg (V c main_v1 : S32x2048x1.Idx → EReal) ?_
    funext a; apply Fin.ext
    match a with
    | ⟨0, _⟩ => show win0_2.index t (0 : Fin 3) * 1 + 1 * 0 = win0_3.index t (0 : Fin 3); omega
    | ⟨1, _⟩ => show win0_2.index t (1 : Fin 3) * 512 + 1 * p.val = win0_3.index t (1 : Fin 3) * 512 + p.val; omega
    | ⟨2, _⟩ => show win0_2.index t (2 : Fin 3) * 1 + 1 * 0 = 0; omega
  · show _ = attended V c (((cfg0.win 3).blk t).view.emb j)
    rw [hemb]
    rfl

/-! ## The blocks tile the array -/

/-- An index of the array is in point `t`'s block iff each coordinate is in the block's range on its axis. -/
theorem mem_blk (t : Fin cfg0.N) (i : S32x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v2).slice (win0_3.rect t)).set ↔ _
  rw [View.set_slice_whole, Rect.mem_set_unit]
  exact Iff.rfl

/-- Row `r` of batch `b` is in the block of point `(b, r / 512)`. -/
theorem covered (i : S32x2048x256.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE ARRAY after the run is `attended`. -/
theorem final (c : Dev nD) : (dat V c).arrAt 3 cfg0.N = attended V c :=
  (dat V c).arrAt_eq_of_cover 3 (attended V c) (fun t _ => flushed_eq V c t) covered

end Cert.KernelIdeal.AttnValue

end
-- ==== Proof.ReferenceRead.lean ====
/-
  The reference program's result, read at an index, is the column-normalised arrangement.

  The program computes all pairwise scores `s[b,k,j] = x[b,k,·] · x[b,j,·]`, takes their exponentials, multiplies
  every weight of column `j` by the mask of `(b, j)`, sums each masked column over its row index `k`, adds `ε`,
  divides each masked weight by its column's normaliser, and contracts the quotient's row index `k` against the rows
  `x[b,k,d]`. Read at `(b, j, d)` this is, term by term, `Cert.Attention.refAt`.
-/
import proofs.«180703_j87960930222122_1_alg».proof.Proof.Gen.ReferenceIdeal.Read
import proofs.«180703_j87960930222122_1_alg».proof.Proof.Attention

noncomputable section

namespace Cert.ReferenceIdeal.RefValue

open Cert.ReferenceIdeal Cert.ReferenceIdeal.Read Idealize.ShloMosaic Idealize.ShloMosaic.ValueIdx

/-! ## The index functions at coordinate triples -/

theorem lidx_v12_ix3 (b : Fin 32) (j : Fin 2048) (d : Fin 256) (k : Fin 2048) :
    lidx_main_v12 (ix3 b j d) k = ix3 b k j :=
  funext fun a => Fin.ext (by match a with | ⟨0, _⟩ => rfl | ⟨1, _⟩ => rfl | ⟨2, _⟩ => rfl)

theorem ridx_v12_ix3 (b : Fin 32) (j : Fin 2048) (d : Fin 256) (k : Fin 2048) :
    ridx_main_v12 (ix3 b j d) k = ix3 b k d :=
  funext fun a => Fin.ext (by match a with | ⟨0, _⟩ => rfl | ⟨1, _⟩ => rfl | ⟨2, _⟩ => rfl)

theorem lidx_v0_ix3 (b : Fin 32) (k j : Fin 2048) (e : Fin 256) :
    lidx_main_v0 (ix3 b k j) e = ix3 b k e :=
  funext fun a => Fin.ext (by match a with | ⟨0, _⟩ => rfl | ⟨1, _⟩ => rfl | ⟨2, _⟩ => rfl)

theorem ridx_v0_ix3 (b : Fin 32) (k j : Fin 2048) (e : Fin 256) :
    ridx_main_v0 (ix3 b k j) e = ix3 b j e :=
  funext fun a => Fin.ext (by match a with | ⟨0, _⟩ => rfl | ⟨1, _⟩ => rfl | ⟨2, _⟩ => rfl)

theorem idx_v4_ix3 (b : Fin 32) (k j : Fin 2048) :
    idx_main_v4 (ix3 b k j) = ix3 b (0 : Fin 1) j :=
  funext fun a => Fin.ext (by match a with | ⟨0, _⟩ => rfl | ⟨1, _⟩ => rfl | ⟨2, _⟩ => rfl)

theorem idx_v10_ix3 (b : Fin 32) (k j : Fin 2048) :
    idx_main_v10 (ix3 b k j) = ix3 b (0 : Fin 1) j :=
  funext fun a => Fin.ext (by match a with | ⟨0, _⟩ => rfl | ⟨1, _⟩ => rfl | ⟨2, _⟩ => rfl)

theorem idx_v2_ix3 (b : Fin 32) (j : Fin 2048) :
    idx_main_v2 (ix3 b (0 : Fin 1) j) = ix2 b j :=
  funext fun a => Fin.ext (by match a with | ⟨0, _⟩ => rfl | ⟨1, _⟩ => rfl)

theorem idx_v7_ix3 (b : Fin 32) (j : Fin 2048) :
    idx_main_v7 (ix3 b (0 : Fin 1) j) = ix2 b j :=
  funext fun a => Fin.ext (by match a with | ⟨0, _⟩ => rfl | ⟨1, _⟩ => rfl)

theorem idx_v6_ix2 (b : Fin 32) (j k : Fin 2048) :
    idx_main_v6 (ix2 b j) k = ix3 b k j :=
  funext fun a => Fin.ext (by match a with | ⟨0, _⟩ => rfl | ⟨1, _⟩ => rfl | ⟨2, _⟩ => rfl)

/-! ## The stages at coordinate triples -/

/-- The score stage at `(b, k, j)` is the inner product of rows `k` and `j`, in that order. -/
theorem v0_at (x0 : (⟨S32x2048x256, .f32⟩ : BufTy).Contents (Elt Ideal)) (b : Fin 32) (k j : Fin 2048) :
    val_main_v0 (F := Ideal) x0 (ix3 b k j) = Cert.Attention.score x0 b k j := by
  rw [val_main_v0_apply]
  simp only [lidx_v0_ix3, ridx_v0_ix3]
  rfl

/-- The broadcast mask at `(b, k, j)` is the mask of `(b, j)`, whatever the row `k`. -/
theorem v4_at (x1 : (⟨S32x2048, .i32⟩ : BufTy).Contents (Elt Ideal)) (b : Fin 32) (k j : Fin 2048) :
    val_main_v4 (F := Ideal) x1 (ix3 b k j) = Cert.Attention.maskF x1 (ix2 b j) := by
  rw [val_main_v4_apply, idx_v4_ix3, val_main_v3_apply, val_main_v2_apply, idx_v2_ix3]
  rfl

/-- The masked weight at `(b, k, j)`. -/
theorem v5_at (x0 : (⟨S32x2048x256, .f32⟩ : BufTy).Contents (Elt Ideal)) (x1 : (⟨S32x2048, .i32⟩ : BufTy).Contents (Elt Ideal))
    (b : Fin 32) (k j : Fin 2048) :
    val_main_v5 (F := Ideal) x0 x1 (ix3 b k j)
      = Ideal.exp (Cert.Attention.score x0 b k j) * Cert.Attention.maskF x1 (ix2 b j) := by
  rw [val_main_v5_apply, val_main_v1_apply, v0_at, v4_at, Ideal.mulf_def, Ideal.hostUnary_exp_def]

/-- The normaliser at `(b, k, j)`: the masked column sum plus `ε`, whatever the row `k`. The sum's initial value is
    the zero word, which reads as `0`. -/
theorem v10_at (x0 : (⟨S32x2048x256, .f32⟩ : BufTy).Contents (Elt Ideal)) (x1 : (⟨S32x2048, .i32⟩ : BufTy).Contents (Elt Ideal))
    (b : Fin 32) (k j : Fin 2048) :
    val_main_v10 (F := Ideal) x0 x1 (ix3 b k j)
      = (∑ k' : Fin 2048, Ideal.exp (Cert.Attention.score x0 b k' j) * Cert.Attention.maskF x1 (ix2 b j))
          + Cert.Attention.eps := by
  rw [val_main_v10_apply, idx_v10_ix3, val_main_v9_apply, val_main_v7_apply, idx_v7_ix3, val_main_v6_apply,
    val_main_v8_apply, val_main_cst_0_apply, val_main_cst_apply, Ideal.addf_def, Ideal.ofBits_def, Ideal.ofBits_def,
    Ideal.ofBits_zero_f32, zero_add]
  simp only [idx_v6_ix2, v5_at]
  rfl

/-- The reference's result at `(b, j, d)` is the column-normalised arrangement. -/
theorem reference_at (x0 : (⟨Cert.ReferenceIdeal.S32x2048x256, .f32⟩ : BufTy).Contents (Elt Ideal)) (x1 : (⟨Cert.ReferenceIdeal.S32x2048, .i32⟩ : BufTy).Contents (Elt Ideal))
    (b : Fin 32) (j : Fin 2048) (d : Fin 256) :
    Cert.ReferenceIdeal.Read.val_main_v12 (F := Ideal) x0 x1 (ValueIdx.ix3 b j d) = Cert.Attention.refAt x0 (Cert.Attention.maskF x1) b j d := by
  rw [val_main_v12_apply]
  unfold Cert.Attention.refAt
  refine Finset.sum_congr rfl fun k _ => ?_
  rw [lidx_v12_ix3, ridx_v12_ix3, val_main_v11_apply, v5_at, v10_at, Ideal.hostDivf_def]

end Cert.ReferenceIdeal.RefValue

end
-- ==== Proof.AttentionLaw.lean ====
/-
  The algebraic law joining the two arrangements of masked self-attention.

  With every activation a real number, each score is a real, each weight `exp (score)` a positive real, the
  weights' sum a nonnegative real and `ε` a positive real, so every normaliser is a positive real and a division
  by it is a multiplication by its reciprocal. For a mask of `1` the two arrangements are then the same real sum
  with the common reciprocal moved across it; for a mask of `0` every masked weight vanishes, the masked
  normaliser is `ε ≠ 0`, and both sides are `0`.
-/
import proofs.«180703_j87960930222122_1_alg».proof.Proof.Attention
import Mathlib.Tactic

noncomputable section

namespace Cert.Attention

open Idealize.ShloMosaic Idealize.ShloMosaic.ValueIdx

/-- The inner product is symmetric in its two rows. -/
theorem score_comm (x : SX.Idx → EReal) (b : Fin 32) (r k : Fin 2048) : score x b r k = score x b k r := by
  unfold score
  exact Finset.sum_congr rfl fun e _ => mul_comm _ _

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `ε` is a positive real: the word has sign `0`, exponent `103` and fraction `5685141`, so it denotes
    `(2^23 + 5685141) · 2^(103 - 127 - 23)`. -/
theorem eps_pos : ∃ e : ℝ, 0 < e ∧ eps = (e : EReal) := by
  refine ⟨(14073749 : ℝ) * (2 : ℝ) ^ (-47 : Int), by positivity, ?_⟩
  simp [eps, Ideal.ofBits, Ideal.ieee]

/-- The law in the abstract: positive real weights `w`, real values `v`, a positive real `e` and a mask `m`
    that is `0` or `1`. Masking each weight, normalising by the masked sum plus `e` and summing against the
    values is the same as normalising the weighted sum by the weights' sum plus `e` and masking the result. -/
theorem masked_normalise_law {ι : Type*} [Fintype ι] (w v : ι → ℝ) (hw : ∀ k, 0 < w k) (e : ℝ) (he : 0 < e)
    (m : EReal) (hm : m = 0 ∨ m = 1) :
    (∑ k : ι, Ideal.div ((w k : EReal) * m) ((∑ k' : ι, (w k' : EReal) * m) + (e : EReal)) * (v k : EReal))
      = Ideal.div (∑ k : ι, (w k : EReal) * (v k : EReal)) ((∑ k : ι, (w k : EReal)) + (e : EReal)) * m := by
  rcases hm with rfl | rfl
  · -- mask 0: every masked weight is 0, the masked normaliser is e ≠ 0, every summand is 0
    have h0 : Ideal.div (0 : EReal) ((0 : EReal) + (e : EReal)) = 0 := by
      rw [zero_add, Ideal.div_coe he.ne', zero_mul]
    simp only [mul_zero, Finset.sum_const_zero, h0, zero_mul]
  · -- mask 1: the normaliser E + e is a positive real; divide by multiplying with its reciprocal
    have hE : 0 ≤ ∑ k : ι, w k := Finset.sum_nonneg fun k _ => (hw k).le
    have hne : (∑ k : ι, w k) + e ≠ 0 := (add_pos_of_nonneg_of_pos hE he).ne'
    have hden : (∑ k : ι, (w k : EReal)) + (e : EReal) = (((∑ k : ι, w k) + e : ℝ) : EReal) := by
      rw [EReal.coe_add, coe_finset_sum]
    simp only [mul_one]
    rw [hden]
    simp only [Ideal.div_coe hne]
    have hl : ∀ k : ι, (w k : EReal) * ((1 / ((∑ k : ι, w k) + e) : ℝ) : EReal) * (v k : EReal)
        = ((w k * (1 / ((∑ k : ι, w k) + e)) * v k : ℝ) : EReal) := fun k => by
      rw [EReal.coe_mul, EReal.coe_mul]
    have hr : ∀ k : ι, (w k : EReal) * (v k : EReal) = ((w k * v k : ℝ) : EReal) := fun k => by
      rw [EReal.coe_mul]
    simp only [hl, hr]
    rw [← coe_finset_sum, ← coe_finset_sum, ← EReal.coe_mul]
    congr 1
    rw [Finset.sum_mul]
    exact Finset.sum_congr rfl fun k _ => by ring

/-- The column-normalised arrangement equals the attended row when every activation is real and the row's mask
    is `0` or `1`. -/
theorem refAt_eq_attendAt (x : SX.Idx → EReal) (mf : SM.Idx → EReal) (hx : ∀ i, ∃ r : ℝ, x i = (r : EReal))
    (b : Fin 32) (j : Fin 2048) (d : Fin 256) (hm : mf (ix2 b j) = 0 ∨ mf (ix2 b j) = 1) :
    refAt x mf b j d = attendAt x mf b j d := by
  choose xr hxr using hx
  obtain ⟨e, he, hee⟩ := eps_pos
  -- the weight of the pair (j, k): the exponential of a real score
  have hs : ∀ k : Fin 2048, Ideal.exp (score x b j k)
      = ((Real.exp (∑ c : Fin 256, xr (ix3 b j c) * xr (ix3 b k c)) : ℝ) : EReal) := fun k => by
    have : score x b j k = ((∑ c : Fin 256, xr (ix3 b j c) * xr (ix3 b k c) : ℝ) : EReal) := by
      unfold score
      rw [coe_finset_sum]
      exact Finset.sum_congr rfl fun c _ => by rw [hxr, hxr, EReal.coe_mul]
    rw [this, Ideal.exp_coe]
  have hs' : ∀ k : Fin 2048, Ideal.exp (score x b k j)
      = ((Real.exp (∑ c : Fin 256, xr (ix3 b j c) * xr (ix3 b k c)) : ℝ) : EReal) := fun k => by
    rw [score_comm, hs]
  unfold refAt attendAt
  simp only [hs, hs', hee, hxr]
  exact masked_normalise_law (fun k : Fin 2048 => Real.exp (∑ c : Fin 256, xr (ix3 b j c) * xr (ix3 b k c)))
    (fun k : Fin 2048 => xr (ix3 b k d)) (fun k => Real.exp_pos _) e he (mf (ix2 b j)) hm

end Cert.Attention

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«180703_j87960930222122_1_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Inputs.lean ====
/-
  What the precondition says about the two inputs.

  The precondition is the conjunction of two tests, each an `and`-reduction over all axes from `1`:

  * `|x| < +∞` entry by entry. On the extended reals `|x| = max x (−x)` and the pattern of `+∞` denotes `⊤`, so an
    entry passes exactly when it is a real number;
  * `mask = 0 ∨ mask = 1` entry by entry, the two comparisons being equalities of 32-bit words with the splats of
    the words `0` and `1`.

  A conjunction that is `1` has both conjuncts `1`; an `and`-reduction into a single result that is `1` met a `1` at
  every entry. Hence every entry of `x` is a real and every mask word is `0` or `1` (`real_and_binary`).

  The specification reads a mask word as a signed integer, exactly: the words `0` and `1` read as the reals `0` and
  `1` (`maskF_binary`).
-/
import proofs.«180703_j87960930222122_1_alg».proof.Pre_finite_inputs
import proofs.«180703_j87960930222122_1_alg».proof.Proof.Gen.Pre_finite_inputs
import proofs.«180703_j87960930222122_1_alg».proof.Proof.Attention
import proofs.«180703_j87960930222122_1_alg».proof.Proof.LibFiniteTest
import Idealize.ShloMosaic.Lib.ReduceAll

noncomputable section

namespace Cert.Inputs

open Idealize.ShloMosaic Idealize.ShloMosaic.ValueIdx

/-- The shape of a scalar has a single index. -/
instance subsingleton_scalar_idx : Subsingleton Cert.Pre_finite_inputs.S_.Idx :=
  ⟨fun _ _ => funext fun d => d.elim0⟩

/-- One mask word's printed test, read back: `(m = 0) ∨ (m = 1)` answered `1`, the two constants being splats of
    the words `0` and `1` from the scalar shape. -/
theorem binary_of_test {m : BitVec 32}
    (e : IntOp.ori (IntOp.cmpi .eq m 0#32) (IntOp.cmpi .eq m 1#32) = 1#1) : m = 0#32 ∨ m = 1#32 := by
  rcases IntOp.ori_eq_one.1 e with e0 | e1
  · exact Or.inl (IntOp.cmpi_eq.1 e0)
  · exact Or.inr (IntOp.cmpi_eq.1 e1)

/-- A precondition that came out `1` makes every entry of `x` a real number and every mask word `0` or `1`. -/
theorem real_and_binary [Cert.Pre_finite_inputs.Facts] (x : FVec Ideal Cert.Pre_finite_inputs.S32x2048x256 .f32) (mk : IVec Cert.Pre_finite_inputs.S32x2048 32)
    (h : Cert.Pre_finite_inputs.fn (F := Ideal) x mk = fun _ => 1#1) :
    (∀ i, ∃ r : ℝ, x i = (r : EReal)) ∧ (∀ j, mk j = 0#32 ∨ mk j = 1#32) := by
  have h0 := congrFun h ix0
  dsimp only [Cert.Pre_finite_inputs.fn] at h0
  -- the outer conjunction: both reductions are `1`
  obtain ⟨hx, hm⟩ := IntOp.andi_eq_one.1 h0
  refine ⟨?_, ?_⟩
  · -- the float conjunct
    exact Cert.Lib.FiniteTest.allReal_of_all x _ _ _ _ _ ix0 hx
  · -- the mask conjunct, entry by entry
    intro j
    exact binary_of_test (Host.reduce_andi_all _ _ _ _ ix0 hm j)

/-- A mask word `0` or `1` reads as the real `0` or `1`. -/
theorem maskF_binary (mk : Cert.Attention.SM.Idx → BitVec 32) (j : Cert.Attention.SM.Idx) (h : mk j = 0#32 ∨ mk j = 1#32) :
    Cert.Attention.maskF mk j = 0 ∨ Cert.Attention.maskF mk j = 1 := by
  have hr : Cert.Attention.maskF mk j = (((mk j).toInt : ℝ) : EReal) := rfl
  rcases h with e | e
  · left
    rw [hr, e]
    have : (0#32 : BitVec 32).toInt = 0 := by decide
    rw [this]; simp
  · right
    rw [hr, e]
    have : (1#32 : BitVec 32).toInt = 1 := by decide
    rw [this]; simp

end Cert.Inputs

end
-- ==== Proof.Joined.lean ====
/-
  Both programs' results as ONE function of the launch arguments: `attend x (maskF mask)`.

  Kernel side: the region finds the activations as launched, and the mask column is what the two host operations made of
  the mask words — each word read as a signed integer, then given a unit last axis — so the column at `(b, r, 0)` is
  `maskF mask (b, r)`. Reference side: its result stage at `(b, j, d)` is the column-normalised arrangement, which under the
  precondition — every activation a real number, every mask word `0` or `1` — is the same attended value.
-/
import proofs.«180703_j87960930222122_1_alg».proof.Proof.KernelIdealValue
import proofs.«180703_j87960930222122_1_alg».proof.Proof.ReferenceRead
import proofs.«180703_j87960930222122_1_alg».proof.Proof.AttentionLaw
import proofs.«180703_j87960930222122_1_alg».proof.Proof.Inputs
import Idealize.ShloMosaic.Lib.StableHlo.Run

set_option maxRecDepth 16384

noncomputable section

namespace Cert.Joined

open Idealize.ShloMosaic Idealize.ShloMosaic.TcCoe Idealize.ShloMosaic.ValueIdx Idealize.ShloMosaic.StableHlo
open Idealize.SL Idealize.SL.Sem

/-! ## The kernel's array -/

section KernelSide

open Cert.KernelIdeal Cert.KernelIdeal.Gen Cert.KernelIdeal.Frame Cert.KernelIdeal.AttnValue

variable (m : (ℓ : Loc nD τ sig) → Buf (Elt Ideal) ℓ) (ρ : Dev nD → PrngReg)

/-- The mask column at the region's entry is the two host operations' term of the mask words. -/
theorem entry_mask_col (c : Dev nD) :
    (V1 m ρ c main_v1 : S32x2048x1.Idx → EReal)
      = broadcastInDim S32x2048x1 ![0, 1] bcast_S32x2048_S32x2048x1_0_1
          (sitofp (F := Ideal) .f32 (m ((c : Thread nD τ).loc main_arg1) : IVec S32x2048 32)) := by
  show StableHlo.after hostOps0 (W0 m ρ c) (Proc.devRef .tc main_v1) = _
  after_results

/-- Read as a mask, it is the mask words as extended reals. -/
theorem entry_mask (c : Dev nD) :
    colMask (V1 m ρ c main_v1 : S32x2048x1.Idx → EReal) = Cert.Attention.maskF (m ((c : Thread nD τ).loc main_arg1)) := by
  funext j
  obtain ⟨b, r, rfl⟩ : ∃ (b : Fin 32) (r : Fin 2048), j = ix2 b r := ⟨j 0, j 1, eq_ix2 j⟩
  show (V1 m ρ c main_v1 : S32x2048x1.Idx → EReal) (ix3 b r (0 : Fin 1)) = _
  rw [entry_mask_col]
  exact (broadcastInDim_apply _ bcast_S32x2048_S32x2048x1_0_1 _ (ix3 b r (0 : Fin 1)) (ix2 b r) (fun a => match a with
    | ⟨0, _⟩ => by show b.val = if (32 : Nat) = 1 then 0 else b.val; rw [if_neg (by decide)]
    | ⟨1, _⟩ => by show r.val = if (2048 : Nat) = 1 then 0 else r.val; rw [if_neg (by decide)])).trans rfl

/-- The result array after the kernel's run, as a function of the launch arguments. -/
theorem kernel_value (c : Dev nD) :
    (dat (V1 m ρ) c).arrAt 3 cfg0.N
      = Cert.Attention.attend (m ((c : Thread nD τ).loc main_arg0)) (Cert.Attention.maskF (m ((c : Thread nD τ).loc main_arg1))) := by
  rw [final (V1 m ρ) c]
  unfold attended
  rw [entry_mask m ρ c, V1_main_arg0 m ρ c]

end KernelSide

/-! ## The reference's result -/

/-- Under the precondition the reference's result stage is the attended array. -/
theorem reference_value [Cert.Pre_finite_inputs.Facts]
    (x : (⟨Cert.ReferenceIdeal.S32x2048x256, .f32⟩ : BufTy).Contents (Elt Ideal)) (mk : (⟨Cert.ReferenceIdeal.S32x2048, .i32⟩ : BufTy).Contents (Elt Ideal))
    (hpre : Cert.Pre_finite_inputs.fn (F := Ideal) x mk = fun _ => 1#1) :
    Cert.ReferenceIdeal.Read.val_main_v12 (F := Ideal) x mk = Cert.Attention.attend x (Cert.Attention.maskF mk) := by
  obtain ⟨hx, hm⟩ := Cert.Inputs.real_and_binary x mk hpre
  funext i
  obtain ⟨b, j, d, rfl⟩ : ∃ (b : Fin 32) (j : Fin 2048) (d : Fin 256), i = ix3 b j d := ⟨i 0, i 1, i 2, eq_ix3 i⟩
  rw [Cert.ReferenceIdeal.RefValue.reference_at, Cert.Attention.attend_ix3]
  exact Cert.Attention.refAt_eq_attendAt x (Cert.Attention.maskF mk) hx b j d (Cert.Inputs.maskF_binary mk (ix2 b j) (hm (ix2 b j)))

end Cert.Joined

end
-- ==== Proof.lean ====
/-
  The certificate of a masked dense self-attention kernel against its reference, on the extended reals.

  Both programs take activations `x : [32, 2048, 256]` and an integer mask `[32, 2048]`. With the score of rows `r, k` of a
  batch their inner product and the weight its exponential, the kernel computes, per row `r`, the weights' sum against the
  rows over the weights' sum plus `ε`, and multiplies by the row's mask at the end; the reference masks every weight of a
  column first, divides each by the column's masked sum plus `ε`, and sums against the rows afterwards. For activations
  that are real numbers and a mask of zeros and ones — the precondition — the two are one function (Proof/Attention.lean,
  Proof/AttentionLaw.lean): division by a positive real distributes over the sum when the mask is one, and both sides vanish
  when it is zero.

  The modules: the kernel body as a triple and the pipeline's proof data (Proof/KernelIdealBody.lean), the whole run with
  the result array named (Proof/KernelIdealRun.lean; the same two at the word level, Proof/KernelBody.lean and
  Proof/KernelRun.lean, for the word-level frame), the body's value at an index (Proof/KernelPayload.lean), the blocks tiling
  the result array (Proof/KernelIdealValue.lean), the reference's result stage at an index (Proof/ReferenceRead.lean), what the
  precondition says of the inputs (Proof/Inputs.lean), and the two results as one function of the arguments
  (Proof/Joined.lean). Here: the five claims.
-/
import proofs.«180703_j87960930222122_1_alg».proof.Defs
import proofs.«180703_j87960930222122_1_alg».proof.Proof.Gen.Kernel
import proofs.«180703_j87960930222122_1_alg».proof.Proof.Gen.Kernel.Skeleton
import proofs.«180703_j87960930222122_1_alg».proof.Proof.Gen.Kernel.Launch
import proofs.«180703_j87960930222122_1_alg».proof.Proof.Gen.Kernel.Points
import proofs.«180703_j87960930222122_1_alg».proof.Proof.Gen.KernelIdeal
import proofs.«180703_j87960930222122_1_alg».proof.Proof.Gen.KernelIdeal.Skeleton
import proofs.«180703_j87960930222122_1_alg».proof.Proof.Gen.KernelIdeal.Launch
import proofs.«180703_j87960930222122_1_alg».proof.Proof.Gen.KernelIdeal.Points
import proofs.«180703_j87960930222122_1_alg».proof.Proof.Gen.ReferenceIdeal
import proofs.«180703_j87960930222122_1_alg».proof.Proof.Gen.ReferenceIdeal.Run
import proofs.«180703_j87960930222122_1_alg».proof.Proof.Gen.ReferenceIdeal.Read
import proofs.«180703_j87960930222122_1_alg».proof.Proof.Gen.Pre_finite_inputs
import proofs.«180703_j87960930222122_1_alg».proof.Proof.KernelRun
import proofs.«180703_j87960930222122_1_alg».proof.Proof.Joined
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both arguments as launched. -/
theorem frame_kernel : Cert.frame_Kernel := fun m ρ _ => Cert.Kernel.Frame.frame (F := Bits) m ρ

/-- So does its idealization. -/
theorem frame_kernel_ideal : Cert.frame_KernelIdeal := fun m ρ _ => Cert.KernelIdeal.Frame.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct. -/
theorem preserves : Cert.preserves_Kernel_KernelIdeal := trivial

/-- From arguments that agree and satisfy the precondition both idealized programs end with the result array at the
    attended activations under the float mask. -/
theorem algebraic : Cert.algebraic_KernelIdeal_ReferenceIdeal := by
  intro m ρ m' ρ' hpre hagree
  refine ⟨fun c => Cert.Attention.attend (m ((c.tc : Thread Cert.KernelIdeal.nD Cert.KernelIdeal.τ).loc Cert.KernelIdeal.main_arg0))
      (Cert.Attention.maskF (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.Joined.kernel_value m ρ c), (h c).2.1, (h c).2.2⟩)
      (Cert.KernelIdeal.Frame.run_main (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v12_eq, (hagree c).1, (hagree c).2]
    exact Cert.Joined.reference_value _ _ (hpre c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
